-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) (main_arg1 : IVec S16384x2048 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Kernel.lean ====
abbrev S16384x2048 : Shape := ⟨2, ![16384, 2048]⟩
abbrev S16384x1 : Shape := ⟨2, ![16384, 1]⟩
abbrev S1024x2048 : Shape := ⟨2, ![1024, 2048]⟩
abbrev S1024x1 : Shape := ⟨2, ![1024, 1]⟩
abbrev S1024x128 : Shape := ⟨2, ![1024, 128]⟩
abbrev S1024 : Shape := ⟨1, ![1024]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S16384x2048, .i32⟩
  | .hbm, ⟨2, _⟩ => ⟨S16384x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .i32⟩
  | .local _ .vmem, ⟨3, _⟩ => ⟨S1024x2048, .i32⟩
  | .local _ .vmem, ⟨4, _⟩ => ⟨S1024x1, .f32⟩
  | .local _ .vmem, ⟨5, _⟩ => ⟨S1024x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c128_i32 : BitVec 32 := 128#32
  let v2 : BitVec 32 := Scalar.muli c0_i32 c128_i32
  v2
def k0_off1 (c0_i32 : BitVec 32) : Fin 2 → Nat :=
  let c0 : Index := 0#32
  let c128_i32 : BitVec 32 := 128#32
  let v2 : BitVec 32 := Scalar.muli c0_i32 c128_i32
  let v3 : BitVec 32 := v2
  let v4 : Index := Scalar.indexCast v3
  ![0, v4.toNat]
def k0_mult2 : BitVec 32 :=
  let c1_i32 : BitVec 32 := 1#32
  let c128_i32_6 : BitVec 32 := 128#32
  let v24 : BitVec 32 := Scalar.muli c1_i32 c128_i32_6
  v24
def k0_mult3 : BitVec 32 :=
  let c2_i32 : BitVec 32 := 2#32
  let c128_i32_13 : BitVec 32 := 128#32
  let v46 : BitVec 32 := Scalar.muli c2_i32 c128_i32_13
  v46
def k0_mult4 : BitVec 32 :=
  let c3_i32 : BitVec 32 := 3#32
  let c128_i32_20 : BitVec 32 := 128#32
  let v68 : BitVec 32 := Scalar.muli c3_i32 c128_i32_20
  v68
def k0_mult5 : BitVec 32 :=
  let c4_i32 : BitVec 32 := 4#32
  let c128_i32_27 : BitVec 32 := 128#32
  let v90 : BitVec 32 := Scalar.muli c4_i32 c128_i32_27
  v90
def k0_mult6 : BitVec 32 :=
  let c5_i32 : BitVec 32 := 5#32
  let c128_i32_34 : BitVec 32 := 128#32
  let v112 : BitVec 32 := Scalar.muli c5_i32 c128_i32_34
  v112
def k0_mult7 : BitVec 32 :=
  let c6_i32 : BitVec 32 := 6#32
  let c128_i32_41 : BitVec 32 := 128#32
  let v134 : BitVec 32 := Scalar.muli c6_i32 c128_i32_41
  v134
def k0_mult8 : BitVec 32 :=
  let c7_i32 : BitVec 32 := 7#32
  let c128_i32_48 : BitVec 32 := 128#32
  let v156 : BitVec 32 := Scalar.muli c7_i32 c128_i32_48
  v156
def k0_mult9 : BitVec 32 :=
  let c8_i32 : BitVec 32 := 8#32
  let c128_i32_55 : BitVec 32 := 128#32
  let v178 : BitVec 32 := Scalar.muli c8_i32 c128_i32_55
  v178
def k0_mult10 : BitVec 32 :=
  let c9_i32 : BitVec 32 := 9#32
  let c128_i32_62 : BitVec 32 := 128#32
  let v200 : BitVec 32 := Scalar.muli c9_i32 c128_i32_62
  v200
def k0_mult11 : BitVec 32 :=
  let c10_i32 : BitVec 32 := 10#32
  let c128_i32_69 : BitVec 32 := 128#32
  let v222 : BitVec 32 := Scalar.muli c10_i32 c128_i32_69
  v222
def k0_mult12 : BitVec 32 :=
  let c11_i32 : BitVec 32 := 11#32
  let c128_i32_76 : BitVec 32 := 128#32
  let v244 : BitVec 32 := Scalar.muli c11_i32 c128_i32_76
  v244
def k0_mult13 : BitVec 32 :=
  let c12_i32 : BitVec 32 := 12#32
  let c128_i32_83 : BitVec 32 := 128#32
  let v266 : BitVec 32 := Scalar.muli c12_i32 c128_i32_83
  v266
def k0_mult14 : BitVec 32 :=
  let c13_i32 : BitVec 32 := 13#32
  let c128_i32_90 : BitVec 32 := 128#32
  let v288 : BitVec 32 := Scalar.muli c13_i32 c128_i32_90
  v288
def k0_mult15 : BitVec 32 :=
  let c14_i32 : BitVec 32 := 14#32
  let c128_i32_97 : BitVec 32 := 128#32
  let v310 : BitVec 32 := Scalar.muli c14_i32 c128_i32_97
  v310
def k0_mult16 : BitVec 32 :=
  let c15_i32 : BitVec 32 := 15#32
  let c128_i32_104 : BitVec 32 := 128#32
  let v332 : BitVec 32 := Scalar.muli c15_i32 c128_i32_104
  v332
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  h_S1024x128 : 0 < S1024x128.numel
  reduces_S1024x128_S1024 : S1024x128.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  reducesTo_S16384x1_S_d0_1 : S16384x1.ReducesTo [0, 1] S_
  h_S_ : 0 < S_.numel
  hrank0 : 0 < grid0.rank
  k0_mult1_dvd : 128 ∣ k0_mult1.toNat
  k0_off1_inb : ∀ (r : Fin 16), ∀ a, (k0_off1 (BitVec.ofNat 32 r.val)) a + S1024x128.size a ≤ S1024x2048.size a
  k0_mult2_dvd : 128 ∣ k0_mult2.toNat
  k0_mult3_dvd : 128 ∣ k0_mult3.toNat
  k0_mult4_dvd : 128 ∣ k0_mult4.toNat
  k0_mult5_dvd : 128 ∣ k0_mult5.toNat
  k0_mult6_dvd : 128 ∣ k0_mult6.toNat
  k0_mult7_dvd : 128 ∣ k0_mult7.toNat
  k0_mult8_dvd : 128 ∣ k0_mult8.toNat
  k0_mult9_dvd : 128 ∣ k0_mult9.toNat
  k0_mult10_dvd : 128 ∣ k0_mult10.toNat
  k0_mult11_dvd : 128 ∣ k0_mult11.toNat
  k0_mult12_dvd : 128 ∣ k0_mult12.toNat
  k0_mult13_dvd : 128 ∣ k0_mult13.toNat
  k0_mult14_dvd : 128 ∣ k0_mult14.toNat
  k0_mult15_dvd : 128 ∣ k0_mult15.toNat
  k0_mult16_dvd : 128 ∣ k0_mult16.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S16384x2048.size a
  hwx0_1 : ∀ i : grid0.Coords, EltTy.bits .i32 = 32 ∨ (Rect.block (s := S16384x2048) S1024x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)

variable [Facts₀]

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S_ : Shape := ⟨0, ![]⟩
abbrev S16384 : Shape := ⟨1, ![16384]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .i32⟩
  | .hbm, ⟨2, _⟩ => ⟨S16384x2048, .f32⟩
  | .hbm, ⟨3, _⟩ => ⟨S_, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x2048, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S16384, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S_S16384x2048 : S_.BroadcastsInDim S16384x2048 (![] : Fin 0 → Fin S16384x2048.rank)
  reducesTo_S16384x2048_S16384_d1 : S16384x2048.ReducesTo [1] S16384
  h_S_ : 0 < S_.numel
  reducesTo_S16384_S_d0 : S16384.ReducesTo [0] S_

variable [Facts₀]

class Facts : Prop extends Facts₀ where

variable [Facts]
-- ==== Proof.LibChunkSum.lean ====
/-
  A sum over the positions `0 … N - 1`, `N = q·n`, regrouped into `q` chunks of `n` consecutive positions:
  `∑ R, f R = ∑ t, ∑ r, f (t·n + r)`, in any additive commutative monoid. Nothing is asked of the summands: on
  the extended reals only commutativity and associativity of `+` are used, so infinite entries are allowed.
-/
import Mathlib.Algebra.BigOperators.Fin
import Mathlib.Logic.Equiv.Fin.Basic

namespace ChunkSum

open Finset

/-- Offset `r` of chunk `t` lies among the `N = q·n` positions. -/
theorem pos_lt {q n N : ℕ} (hN : q * n = N) (t : Fin q) (r : Fin n) : t.val * n + r.val < N := by
  have ht := t.isLt
  have hr := r.isLt
  calc t.val * n + r.val < t.val * n + n := by omega
    _ = (t.val + 1) * n := (Nat.succ_mul _ _).symm
    _ ≤ q * n := Nat.mul_le_mul_right n ht
    _ = N := hN

/-- Position `t·n + r`: offset `r` of chunk `t`. -/
def pos {q n N : ℕ} (hN : q * n = N) (t : Fin q) (r : Fin n) : Fin N := ⟨t.val * n + r.val, pos_lt hN t r⟩

@[simp] theorem pos_val {q n N : ℕ} (hN : q * n = N) (t : Fin q) (r : Fin n) :
    (pos hN t r).val = t.val * n + r.val := rfl

/-- The one sum over all `N = q·n` positions is the sum over the chunks of each chunk's sum. -/
theorem sum_chunks {M : Type*} [AddCommMonoid M] {q n N : ℕ} (hN : q * n = N) (f : Fin N → M) :
    ∑ R : Fin N, f R = ∑ t : Fin q, ∑ r : Fin n, f (pos hN t r) := by
  subst hN
  rw [← Fintype.sum_prod_type']
  refine (Fintype.sum_equiv finProdFinEquiv _ _ ?_).symm
  rintro ⟨t, r⟩
  refine congrArg f (Fin.ext ?_)
  simp [finProdFinEquiv, pos, Nat.mul_comm, Nat.add_comm]

end ChunkSum
-- ==== Proof.LibRealEntries.lean ====
/-
  Extended reals that are real numbers, and the operations that keep them so.

  An extended real is *real* here when it is the coercion of a real number. Sums, differences, products and maxima of real
  values are real; so is a finite sum of real values; the quotient by a non-zero real constant; and the reciprocal square
  root of a positive real. At the ideal values a gather reads entries of its operand and a scatter-add leaves the
  operand's entry plus a finite sum of update entries, so both keep arrays of real entries real. No program is mentioned here.
-/
import Mathlib.Data.EReal.Basic
import Mathlib.Data.EReal.Operations
import Mathlib.Algebra.BigOperators.Field
import Idealize.ShloMosaic.PureOps.Ideal
import Idealize.ShloMosaic.PureOps.Ideal.Laws

noncomputable section

namespace Cert.RealEntries

open Idealize.ShloMosaic
open scoped BigOperators

/-- An extended real that is a real number. -/
def IsReal (x : EReal) : Prop := ∃ r : ℝ, x = (r : EReal)

theorem isReal_coe (r : ℝ) : IsReal (r : EReal) := ⟨r, rfl⟩
theorem isReal_zero : IsReal (0 : EReal) := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption

/-- A finite sum of real values is real. -/
theorem isReal_sum {ι : Type*} (s : Finset ι) (g : ι → EReal) (h : ∀ i ∈ s, IsReal (g i)) : IsReal (∑ i ∈ s, g i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The coercion of a finite real sum is the sum of the coercions. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The ideal quotient by a non-zero real constant keeps a real value real. -/
theorem IsReal.div_coe {x : EReal} (hx : IsReal x) {y : ℝ} (hy : y ≠ 0) : IsReal (Ideal.div x (y : EReal)) := by
  rw [Ideal.div_coe hy]; exact hx.mul (isReal_coe _)

/-- The reciprocal square root of a positive real is real. -/
theorem isReal_rsqrt_pos {r : ℝ} (hr : 0 < r) : IsReal (Ideal.rsqrt (r : EReal)) := by
  rw [Ideal.rsqrt_coe, if_neg (not_lt.mpr hr.le), if_neg hr.ne']
  exact isReal_coe _

/-- A family of real values, read as real numbers. -/
theorem choose_real {ι : Type*} {g : ι → EReal} (h : ∀ i, IsReal (g i)) : ∃ f : ι → ℝ, ∀ i, g i = (f i : EReal) :=
  ⟨fun i => (h i).choose, fun i => (h i).choose_spec⟩

end Cert.RealEntries

end
-- ==== Proof.RowLaw.lean ====
/-
  One row of the loss, two ways, on the extended reals.

  A row has 2048 entries `a j` and 2048 label values `b j`. The loss of the row is
  `log (1 + N · P)` with `N = ∑ (1 - b j) · exp (a j)` and `P = ∑ b j / exp (a j)`.

  One spelling walks the row in 16 chunks of 128 consecutive entries and keeps two running
  values: after each chunk it adds the chunk's `∑ exp a` to the first and takes the chunk's
  `∑ b · exp a` away from it, and adds the chunk's `∑ b · exp (0 - a)` to the second
  (`negAcc`, `posAcc`). The other spelling sums the whole row at once (`refRow`).

  When every entry and every label value is a real number the two agree:
  `exp (-x) = 1 / exp x`, `(1 - l) · e = e - l · e`, and a sum over the 2048 entries is the
  sum over the chunks of the chunks' sums. Finiteness is needed: with an infinite entry
  `e - l · e` is not `(1 - l) · e`.
-/
import Mathlib.Analysis.SpecialFunctions.Exp
import Idealize.ShloMosaic.PureOps.Ideal
import Idealize.ShloMosaic.PureOps.Ideal.Laws
import proofs.«156576_j13572096655779_2_alg».proof.Proof.LibChunkSum
import proofs.«156576_j13572096655779_2_alg».proof.Proof.LibRealEntries

noncomputable section

namespace Cert.RowLaw

open Idealize.ShloMosaic Cert.RealEntries
open scoped BigOperators

/-- Chunk number `n` (taken mod 16, so that it is defined for every `n`). -/
def chunk (n : ℕ) : Fin 16 := ⟨n % 16, Nat.mod_lt n (by decide)⟩

theorem chunk_cast (c : Fin 16) : chunk c.val = c := Fin.ext (Nat.mod_eq_of_lt c.isLt)

/-- The column of lane `k` of chunk `c`: `128 c + k`. -/
def col (c : Fin 16) (k : Fin 128) : Fin 2048 := ChunkSum.pos (q := 16) (n := 128) (N := 2048) rfl c k

theorem col_val (c : Fin 16) (k : Fin 128) : (col c k).val = c.val * 128 + k.val := rfl

/-! ## The two spellings -/

section spellings

variable (a b : Fin 2048 → EReal)

/-- A chunk's sum of exponentials. -/
def laneE (c : Fin 16) : EReal := ∑ k : Fin 128, Ideal.exp (a (col c k))
/-- A chunk's sum of label times exponential. -/
def laneLE (c : Fin 16) : EReal := ∑ k : Fin 128, b (col c k) * Ideal.exp (a (col c k))
/-- A chunk's sum of label times exponential of the negated entry. -/
def laneLN (c : Fin 16) : EReal := ∑ k : Fin 128, b (col c k) * Ideal.exp (0 - a (col c k))

/-- The first running value after chunk `n`. -/
def negAcc : ℕ → EReal
  | 0 => (0 + laneE a (chunk 0)) - laneLE a b (chunk 0)
  | n + 1 => (negAcc n + laneE a (chunk (n + 1))) - laneLE a b (chunk (n + 1))

/-- The second running value after chunk `n`. -/
def posAcc : ℕ → EReal
  | 0 => 0 + laneLN a b (chunk 0)
  | n + 1 => posAcc n + laneLN a b (chunk (n + 1))

/-- The row's loss, chunk by chunk. -/
def kernelRow : EReal := Ideal.log1p (negAcc a b 15 * posAcc a b 15)

/-- The row's loss, the whole row at once. -/
def refRow : EReal :=
  Ideal.log1p ((0 + ∑ j : Fin 2048, (1 - b j) * Ideal.exp (a j)) * (0 + ∑ j : Fin 2048, Ideal.div (b j) (Ideal.exp (a j))))

end spellings

/-! ## Real entries -/

section real

variable (x l : Fin 2048 → ℝ)

def eR (c : Fin 16) : ℝ := ∑ k : Fin 128, Real.exp (x (col c k))
def leR (c : Fin 16) : ℝ := ∑ k : Fin 128, l (col c k) * Real.exp (x (col c k))
def lnR (c : Fin 16) : ℝ := ∑ k : Fin 128, l (col c k) * Real.exp (-(x (col c k)))

theorem laneE_coe (c : Fin 16) : laneE (fun j => (x j : EReal)) c = (eR x c : EReal) := by
  unfold laneE eR
  rw [coe_sum]
  exact Finset.sum_congr rfl fun k _ => rfl

theorem laneLE_coe (c : Fin 16) :
    laneLE (fun j => (x j : EReal)) (fun j => (l j : EReal)) c = (leR x l c : EReal) := by
  unfold laneLE leR
  rw [coe_sum]
  refine Finset.sum_congr rfl fun k _ => ?_
  rw [EReal.coe_mul]
  rfl

theorem laneLN_coe (c : Fin 16) :
    laneLN (fun j => (x j : EReal)) (fun j => (l j : EReal)) c = (lnR x l c : EReal) := by
  unfold laneLN lnR
  rw [coe_sum]
  refine Finset.sum_congr rfl fun k _ => ?_
  have h : (0 : EReal) - ((x (col c k) : ℝ) : EReal) = ((-(x (col c k)) : ℝ) : EReal) := by
    rw [← EReal.coe_zero, ← EReal.coe_sub, zero_sub]
  rw [EReal.coe_mul]
  show (l (col c k) : EReal) * Ideal.exp ((0 : EReal) - ((x (col c k) : ℝ) : EReal)) = _
  rw [h]
  rfl

/-- The first running value is the real partial sum of the chunks' `∑ exp - ∑ l · exp`. -/
theorem negAcc_coe (n : ℕ) :
    negAcc (fun j => (x j : EReal)) (fun j => (l j : EReal)) n
      = ((∑ i ∈ Finset.range (n + 1), (eR x (chunk i) - leR x l (chunk i)) : ℝ) : EReal) := by
  induction n with
  | zero =>
    simp only [negAcc]
    rw [laneE_coe, laneLE_coe, zero_add, ← EReal.coe_sub, Finset.sum_range_one]
  | succ n ih =>
    simp only [negAcc]
    rw [ih, laneE_coe, laneLE_coe, ← EReal.coe_add, ← EReal.coe_sub, Finset.sum_range_succ _ (n + 1)]
    congr 1
    ring

/-- The second running value is the real partial sum of the chunks' `∑ l · exp (-x)`. -/
theorem posAcc_coe (n : ℕ) :
    posAcc (fun j => (x j : EReal)) (fun j => (l j : EReal)) n
      = ((∑ i ∈ Finset.range (n + 1), lnR x l (chunk i) : ℝ) : EReal) := by
  induction n with
  | zero =>
    simp only [posAcc]
    rw [laneLN_coe, zero_add, Finset.sum_range_one]
  | succ n ih =>
    simp only [posAcc]
    rw [ih, laneLN_coe, ← EReal.coe_add, Finset.sum_range_succ _ (n + 1)]

/-- A sum over the sixteen chunk numbers is the sum over the chunks. -/
theorem sum_range16 (g : Fin 16 → ℝ) : ∑ i ∈ Finset.range 16, g (chunk i) = ∑ c : Fin 16, g c := by
  rw [Finset.sum_range]
  exact Finset.sum_congr rfl fun c _ => by rw [chunk_cast]

/-- All sixteen chunks: `∑ (1 - l) · exp x` over the row. -/
theorem neg_real :
    ∑ i ∈ Finset.range 16, (eR x (chunk i) - leR x l (chunk i)) = ∑ j : Fin 2048, (1 - l j) * Real.exp (x j) := by
  rw [sum_range16 (fun c => eR x c - leR x l c), ChunkSum.sum_chunks (q := 16) (n := 128) (N := 2048) rfl]
  refine Finset.sum_congr rfl fun c _ => ?_
  unfold eR leR
  rw [← Finset.sum_sub_distrib]
  refine Finset.sum_congr rfl fun k _ => ?_
  show _ = (1 - l (col c k)) * Real.exp (x (col c k))
  ring

/-- All sixteen chunks: `∑ l / exp x` over the row. -/
theorem pos_real :
    ∑ i ∈ Finset.range 16, lnR x l (chunk i) = ∑ j : Fin 2048, l j * (1 / Real.exp (x j)) := by
  rw [sum_range16 (fun c => lnR x l c), ChunkSum.sum_chunks (q := 16) (n := 128) (N := 2048) rfl]
  refine Finset.sum_congr rfl fun c _ => ?_
  unfold lnR
  refine Finset.sum_congr rfl fun k _ => ?_
  show _ = l (col c k) * (1 / Real.exp (x (col c k)))
  rw [Real.exp_neg, one_div]

theorem refNeg_coe :
    (0 : EReal) + ∑ j : Fin 2048, (1 - (l j : EReal)) * Ideal.exp (x j : EReal)
      = ((∑ j : Fin 2048, (1 - l j) * Real.exp (x j) : ℝ) : EReal) := by
  rw [zero_add, coe_sum]
  refine Finset.sum_congr rfl fun j _ => ?_
  rw [EReal.coe_mul, EReal.coe_sub, EReal.coe_one]
  rfl

theorem refPos_coe :
    (0 : EReal) + ∑ j : Fin 2048, Ideal.div (l j : EReal) (Ideal.exp (x j : EReal))
      = ((∑ j : Fin 2048, l j * (1 / Real.exp (x j)) : ℝ) : EReal) := by
  rw [zero_add, coe_sum]
  refine Finset.sum_congr rfl fun j _ => ?_
  rw [Ideal.exp_coe, Ideal.div_coe (Real.exp_pos _).ne', EReal.coe_mul]

end real

/-- THE LAW OF A ROW: with real entries and real label values, the chunk-by-chunk loss is the
    whole-row loss. -/
theorem row_law (a b : Fin 2048 → EReal) (ha : ∀ j, IsReal (a j)) (hb : ∀ j, IsReal (b j)) :
    kernelRow a b = refRow a b := by
  obtain ⟨x, hx⟩ := choose_real ha
  obtain ⟨l, hl⟩ := choose_real hb
  obtain rfl : a = fun j => (x j : EReal) := funext hx
  obtain rfl : b = fun j => (l j : EReal) := funext hl
  unfold kernelRow refRow
  rw [negAcc_coe, posAcc_coe, neg_real, pos_real]
  beta_reduce
  rw [refNeg_coe, refPos_coe]

end Cert.RowLaw

end
-- ==== Proof.KBody.lean ====
/-
  What the kernel body stores for one block of 1024 rows.

  The body walks the block's 2048 columns in 16 chunks of 128. Of each chunk it takes `exp x`,
  `exp (0 - x)` and the labels as floats, sums `exp x`, `label · exp x` and `label · exp (0 - x)`
  along the 128 lanes, and keeps two running columns of 1024 values: the first gains the chunk's
  `∑ exp x` and loses its `∑ label · exp x`, the second gains its `∑ label · exp (0 - x)`; both
  start from zero. After the last chunk it stores `log (1 + first · second)`.

  Here that is written once, as a recursion over the chunk number (`negV`, `posV`, `rowOut`), for
  any reading of the float operations, and the block the run leaves in the output buffer is shown
  to be `rowOut` of the two input blocks: the one store covers the buffer, its value is the body's
  arithmetic over the 32 loads, and each load reads the chunk's rectangle of its input block.
-/
import proofs.«156576_j13572096655779_2_alg».proof.Proof.Gen.KernelIdeal.Frame
import Idealize.ShloMosaic.Lib.Pipeline.Value
import Idealize.ShloMosaic.Lib.Tactic
import proofs.«156576_j13572096655779_2_alg».proof.Proof.RowLaw

noncomputable section

namespace Cert.KernelIdeal.Body

open Idealize.ShloMosaic Idealize.ShloMosaic.TcCoe Idealize.SL.Sem
open Cert.KernelIdeal Cert.KernelIdeal.Gen Cert.RowLaw

variable {F : FTy → Type} [FloatOps F]

/-- Chunk `c`'s rectangle `[0, 1024) × [128 c, 128 c + 128)` lies inside a `1024 × 2048` block. -/
theorem cols_inb (c : Fin 16) :
    ∀ a, (![0, 128 * c.val] : Fin 2 → Nat) a + (![1024, 128] : Fin 2 → Nat) a ≤ S1024x2048.size a := fun a => by
  have hc := c.isLt
  match a with
  | ⟨0, _⟩ => show 0 + 1024 ≤ 1024; omega
  | ⟨1, _⟩ => show 128 * c.val + 128 ≤ 2048; omega

/-- The 128 columns of chunk `c` of a block of entries: columns `128 c … 128 c + 127`, every row. -/
def xs (x0 : Vec F S1024x2048 .f32) (c : Fin 16) : Vec F S1024x128 .f32 :=
  View.ld x0 (Rect.unit (s := S1024x2048) ![0, 128 * c.val] ![1024, 128] (cols_inb c))

/-- The same columns of the block of labels. -/
def ls (x1 : Vec F S1024x2048 .i32) (c : Fin 16) : Vec F S1024x128 .i32 :=
  View.ld x1 (Rect.unit (s := S1024x2048) ![0, 128 * c.val] ![1024, 128] (cols_inb c))

/-- A chunk summed along its 128 lanes, kept as a column. -/
def laneSum (v : FVec F S1024x128 .f32) : FVec F S1024x1 .f32 :=
  shapeCast S1024x1 (multiReduction .add [1] S1024 v 0x00000000#32 reduces_S1024x128_S1024 (.inl rfl) rfl) shapeCasts_S1024_S1024x1

/-- The zero column both running values start from. -/
def zeroCol : FVec F S1024x1 .f32 := broadcast S1024x1 (Scalar.ofBits .f32 0x00000000#32)

/-- The labels of a chunk as floats. -/
def labC (l : Vec F S1024x128 .i32) : FVec F S1024x128 .f32 := sitofp .f32 l

/-- `exp (0 - x)` of a chunk. -/
def negExp (x : Vec F S1024x128 .f32) : FVec F S1024x128 .f32 :=
  exp (subf (broadcast S1024x128 (Scalar.ofBits .f32 0x00000000#32)) x)

variable (x0 : Vec F S1024x2048 .f32) (x1 : Vec F S1024x2048 .i32)

/-- The first running column after chunk `n`: `+ ∑ exp x`, `- ∑ label · exp x` per chunk. -/
def negV : ℕ → FVec F S1024x1 .f32
  | 0 => subf (addf zeroCol (laneSum (exp (xs x0 (chunk 0))))) (laneSum (mulf (labC (ls x1 (chunk 0))) (exp (xs x0 (chunk 0)))))
  | n + 1 => subf (addf (negV n) (laneSum (exp (xs x0 (chunk (n + 1))))))
      (laneSum (mulf (labC (ls x1 (chunk (n + 1)))) (exp (xs x0 (chunk (n + 1))))))

/-- The second running column after chunk `n`: `+ ∑ label · exp (0 - x)` per chunk. -/
def posV : ℕ → FVec F S1024x1 .f32
  | 0 => addf zeroCol (laneSum (mulf (labC (ls x1 (chunk 0))) (negExp (xs x0 (chunk 0)))))
  | n + 1 => addf (posV n) (laneSum (mulf (labC (ls x1 (chunk (n + 1)))) (negExp (xs x0 (chunk (n + 1))))))

/-- What the body stores for a block: `log (1 + N · P)` of the two running columns after the last chunk. -/
def rowOut : FVec F S1024x1 .f32 := log1p (mulf (negV x0 x1 15) (posV x0 x1 15))

theorem hz : (![0, 0] : Fin 2 → Nat) = fun _ => 0 := funext fun a => by fin_cases a <;> rfl

/-- The output block the body leaves is `rowOut` of the input blocks. -/
theorem out_eq (c : Dev nD) (i : grid0.Coords) (a1 : Memref sig .tc .vmem S1024x2048 .f32) (h1 : a1.IsWhole)
    (a2 : Memref sig .tc .vmem S1024x2048 .i32) (h2 : a2.IsWhole) (a3 : Memref sig .tc .vmem S1024x1 .f32) (h3 : a3.IsWhole) :
    out0_A_2 c i a1 h1 a2 h2 a3 h3 x0 x1 = rowOut x0 x1 := by
  unfold out0_A_2
  rw [View.read_writes_eq_canon _ _ _ (cover0_A_2 c i a1 h1 a2 h2 a3 h3 x0 x1)]
  unfold kernelRun0_A
  dsimp only
  sl_unfold_words
  rw [View.canon_unit_zero hz]
  simp only [View.readAt_eq_ld, h1.read_unread, h2.read_unread]
  rfl

end Cert.KernelIdeal.Body

end
-- ==== Proof.LibUnitAxisSums.lean ====
/-
  General lemmas about unit axes and sums over index sets, independent of any program.

  * `shapeCast_a_a1_apply`: a vector of length `a` viewed as a column `[a, 1]` (a row reduction kept with
    `keepdims=True`) reads, at `(i, u)`, the vector's entry `i`.
  * `sum_idx1`: a sum over the index set of a rank-1 shape `[n]` is the sum over `Fin n`.
  * `sum_idx_1n1`: a sum over the index set of the shape `[1, n, 1]` is the sum over its middle coordinate.
  * `sum_fin_blocks`: a sum over `Fin (q * n)` cut into `q` consecutive blocks of `n`:
    `∑ i, g i = ∑ b, ∑ r, g (n * b + r)`.
-/
import Idealize.ShloMosaic.Lib.Pipeline.Value
import Idealize.ShloMosaic.Lib.ValueIdx

noncomputable section

open scoped BigOperators

namespace Idealize.ShloMosaic.ValueIdx

open Idealize.ShloMosaic

variable {α : Type}

/-- An `[a]` array cast to the column `[a, 1]` reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index set of the rank-1 shape `[n]` is `Fin n` … -/
def idxEquiv1 {n : Nat} : (⟨1, ![n]⟩ : Shape).Idx ≃ Fin n where
  toFun i := i 0
  invFun r := ix1 r
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ r : Fin n, f (ix1 r) := by
  rw [← Equiv.sum_comp (idxEquiv1 (n := n)).symm f]
  rfl

/-- The index set of the shape `[1, n, 1]` is `Fin n`: the two unit coordinates are `0`. -/
def idxEquiv_1n1 {n : Nat} : (⟨3, ![1, n, 1]⟩ : Shape).Idx ≃ Fin n where
  toFun i := i 1
  invFun r := ix3 (0 : Fin 1) r (0 : Fin 1)
  left_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idx_1n1 {M : Type*} [AddCommMonoid M] {n : Nat} (f : (⟨3, ![1, n, 1]⟩ : Shape).Idx → M) :
    ∑ i, f i = ∑ r : Fin n, f (ix3 (0 : Fin 1) r (0 : Fin 1)) := by
  rw [← Equiv.sum_comp (idxEquiv_1n1 (n := n)).symm f]
  rfl

/-- A sum over `q * n` consecutive positions, cut into `q` blocks of `n`. -/
theorem sum_fin_blocks {M : Type*} [AddCommMonoid M] (q n : Nat) (g : Fin (q * n) → M) :
    ∑ i, g i = ∑ b : Fin q, ∑ r : Fin n, g ⟨n * b.val + r.val, by
      have hb := b.isLt; have hr := r.isLt
      calc n * b.val + r.val < n * b.val + n := by omega
        _ = n * (b.val + 1) := by ring
        _ ≤ n * q := Nat.mul_le_mul_left n hb
        _ = q * n := Nat.mul_comm n q⟩ := by
  rw [← Equiv.sum_comp (finProdFinEquiv : Fin q × Fin n ≃ Fin (q * n)) g, Fintype.sum_prod_type]
  refine Finset.sum_congr rfl fun b _ => Finset.sum_congr rfl fun r _ => congrArg g (Fin.ext ?_)
  show r.val + n * b.val = n * b.val + r.val
  omega

end Idealize.ShloMosaic.ValueIdx

end
-- ==== Proof.KRow.lean ====
/-
  The block the body stores, read at a row, with the float operations exact (extended reals).

  Row `p` of a block is the function `j ↦ x0 (p, j)` of the column; the labels' values are the
  integers as reals. A chunk's load reads columns `128 c + k` of the block; a lane sum kept as a
  column reads, at `(p, ·)`, the sum over the 128 lanes of row `p`. So each of the body's three lane
  sums at row `p` is the corresponding chunk sum of the row, the two running columns at row `p` are
  the row's two running values, chunk by chunk, and what is stored at row `p` is the row's loss
  accumulated chunk by chunk.
-/
import proofs.«156576_j13572096655779_2_alg».proof.Proof.KBody
import proofs.«156576_j13572096655779_2_alg».proof.Proof.LibUnitAxisSums
import Idealize.ShloMosaic.Lib.ValueIdx
import Idealize.ShloMosaic.Lib.Pipeline.Value
import Idealize.ShloMosaic.PureOps.Ideal.Laws

noncomputable section

namespace Cert.KernelIdeal.Row

open Idealize.ShloMosaic Idealize.ShloMosaic.ValueIdx
open Cert.KernelIdeal Cert.KernelIdeal.Gen Cert.KernelIdeal.Body Cert.RowLaw
open scoped BigOperators

/-- Row `p` of a block of entries. -/
def bX (x0 : Vec Ideal S1024x2048 .f32) (p : Fin 1024) : Fin 2048 → EReal := fun j => x0 (ix2 p j)

/-- Row `p` of a block of labels, as real numbers. -/
def bL (x1 : Vec Ideal S1024x2048 .i32) (p : Fin 1024) : Fin 2048 → EReal :=
  fun j => FloatOps.sitofp (F := Ideal) .f32 (x1 (ix2 p j))

/-- A lane sum kept as a column reads, at row `p`, the sum of row `p`'s 128 lanes. -/
theorem laneSum_apply (v : FVec Ideal S1024x128 .f32) (p : Fin 1024) (u : Fin 1) :
    laneSum v (ix2 p u) = ∑ k : Fin 128, v (ix2 p k) := by
  unfold laneSum
  refine (shapeCast_a_a1_apply _ shapeCasts_S1024_S1024x1 p u).trans ?_
  refine (Ideal.multiReduction_add_single v 0x00000000#32 reduces_S1024x128_S1024 (.inl rfl) rfl (ix1 p)).trans ?_
  exact Finset.sum_congr rfl fun k _ =>
    congrArg v (funext fun a => Fin.ext (by match a with | ⟨0, _⟩ => rfl | ⟨1, _⟩ => rfl))

/-- Chunk `c`'s load of the entries reads column `128 c + k` at lane `k`. -/
theorem xs_apply (x0 : Vec Ideal S1024x2048 .f32) (c : Fin 16) (p : Fin 1024) (k : Fin 128) :
    xs x0 c (ix2 p k) = x0 (ix2 p (col c k)) := by
  unfold xs
  show x0 _ = x0 _
  refine congrArg x0 (funext fun a => Fin.ext ?_)
  match a with
  | ⟨0, _⟩ => show 0 + 1 * p.val = p.val; omega
  | ⟨1, _⟩ => show 128 * c.val + 1 * k.val = c.val * 128 + k.val; omega

/-- Chunk `c`'s load of the labels reads column `128 c + k` at lane `k`. -/
theorem ls_apply (x1 : Vec Ideal S1024x2048 .i32) (c : Fin 16) (p : Fin 1024) (k : Fin 128) :
    ls x1 c (ix2 p k) = x1 (ix2 p (col c k)) := by
  unfold ls
  show x1 _ = x1 _
  refine congrArg x1 (funext fun a => Fin.ext ?_)
  match a with
  | ⟨0, _⟩ => show 0 + 1 * p.val = p.val; omega
  | ⟨1, _⟩ => show 128 * c.val + 1 * k.val = c.val * 128 + k.val; omega

variable (x0 : Vec Ideal S1024x2048 .f32) (x1 : Vec Ideal S1024x2048 .i32)

/-- The chunk's `∑ exp x` at row `p`. -/
theorem sumE_apply (c : Fin 16) (p : Fin 1024) (u : Fin 1) :
    laneSum (exp (xs x0 c)) (ix2 p u) = laneE (bX x0 p) c := by
  rw [laneSum_apply]
  unfold laneE bX
  refine Finset.sum_congr rfl fun k _ => ?_
  show Ideal.exp (xs x0 c (ix2 p k)) = _
  rw [xs_apply]

/-- The chunk's `∑ label · exp x` at row `p`. -/
theorem sumLE_apply (c : Fin 16) (p : Fin 1024) (u : Fin 1) :
    laneSum (mulf (labC (ls x1 c)) (exp (xs x0 c))) (ix2 p u) = laneLE (bX x0 p) (bL x1 p) c := by
  rw [laneSum_apply]
  unfold laneLE bX bL
  refine Finset.sum_congr rfl fun k _ => ?_
  show FloatOps.sitofp (F := Ideal) .f32 (ls x1 c (ix2 p k)) * Ideal.exp (xs x0 c (ix2 p k)) = _
  rw [xs_apply, ls_apply]

/-- The chunk's `∑ label · exp (0 - x)` at row `p`. -/
theorem sumLN_apply (c : Fin 16) (p : Fin 1024) (u : Fin 1) :
    laneSum (mulf (labC (ls x1 c)) (negExp (xs x0 c))) (ix2 p u) = laneLN (bX x0 p) (bL x1 p) c := by
  rw [laneSum_apply]
  unfold laneLN bX bL
  refine Finset.sum_congr rfl fun k _ => ?_
  show FloatOps.sitofp (F := Ideal) .f32 (ls x1 c (ix2 p k))
      * Ideal.exp (Ideal.ofBits .f32 0x00000000#32 - xs x0 c (ix2 p k)) = _
  rw [xs_apply, ls_apply, Ideal.ofBits_zero_f32]

/-- The first running column at row `p` is the row's first running value. -/
theorem negV_apply (p : Fin 1024) (u : Fin 1) (n : ℕ) :
    negV x0 x1 n (ix2 p u) = negAcc (bX x0 p) (bL x1 p) n := by
  induction n with
  | zero =>
    simp only [negV, negAcc]
    show (Ideal.ofBits .f32 0x00000000#32 + laneSum (exp (xs x0 (chunk 0))) (ix2 p u))
        - laneSum (mulf (labC (ls x1 (chunk 0))) (exp (xs x0 (chunk 0)))) (ix2 p u) = _
    rw [sumE_apply, sumLE_apply, Ideal.ofBits_zero_f32]
  | succ n ih =>
    simp only [negV, negAcc]
    show (negV x0 x1 n (ix2 p u) + laneSum (exp (xs x0 (chunk (n + 1)))) (ix2 p u))
        - laneSum (mulf (labC (ls x1 (chunk (n + 1)))) (exp (xs x0 (chunk (n + 1))))) (ix2 p u) = _
    rw [ih, sumE_apply, sumLE_apply]

/-- The second running column at row `p` is the row's second running value. -/
theorem posV_apply (p : Fin 1024) (u : Fin 1) (n : ℕ) :
    posV x0 x1 n (ix2 p u) = posAcc (bX x0 p) (bL x1 p) n := by
  induction n with
  | zero =>
    simp only [posV, posAcc]
    show Ideal.ofBits .f32 0x00000000#32
        + laneSum (mulf (labC (ls x1 (chunk 0))) (negExp (xs x0 (chunk 0)))) (ix2 p u) = _
    rw [sumLN_apply, Ideal.ofBits_zero_f32]
  | succ n ih =>
    simp only [posV, posAcc]
    show posV x0 x1 n (ix2 p u)
        + laneSum (mulf (labC (ls x1 (chunk (n + 1)))) (negExp (xs x0 (chunk (n + 1))))) (ix2 p u) = _
    rw [ih, sumLN_apply]

/-- What is stored at row `p`: the row's loss, accumulated chunk by chunk. -/
theorem rowOut_apply (p : Fin 1024) (u : Fin 1) :
    rowOut x0 x1 (ix2 p u) = kernelRow (bX x0 p) (bL x1 p) := by
  unfold rowOut kernelRow
  show Ideal.log1p (negV x0 x1 15 (ix2 p u) * posV x0 x1 15 (ix2 p u)) = _
  rw [negV_apply, posV_apply]

end Cert.KernelIdeal.Row

end
-- ==== Proof.Rows.lean ====
/-
  The whole result as one function of the two argument arrays.

  The arrays are `16384 × 2048`: entries `x0` (extended reals) and labels `x1` (32-bit integers).
  Row `r` of each is a function of the column; the label values are the integers as real numbers.
  The result is the mean over the 16384 rows of the rows' losses: the sum of the losses, from
  zero, divided by the number the word `0x46800000` denotes (16384).
-/
import Idealize.ShloMosaic.Lib.ValueIdx
import proofs.«156576_j13572096655779_2_alg».proof.Proof.RowLaw

noncomputable section

namespace Cert.Rows

open Idealize.ShloMosaic Idealize.ShloMosaic.ValueIdx Cert.RowLaw Cert.RealEntries
open scoped BigOperators

/-- The shape of the two argument arrays. -/
abbrev SArr : Shape := ⟨2, ![16384, 2048]⟩

/-- Row `r` of the entries. -/
def rowX (x0 : SArr.Idx → EReal) (r : Fin 16384) : Fin 2048 → EReal := fun j => x0 (ix2 r j)

/-- Row `r` of the labels, each the integer it is, as a real number. -/
def rowL (x1 : SArr.Idx → BitVec 32) (r : Fin 16384) : Fin 2048 → EReal :=
  fun j => FloatOps.sitofp (F := Ideal) .f32 (x1 (ix2 r j))

/-- A label value is a real number. -/
theorem isReal_rowL (x1 : SArr.Idx → BitVec 32) (r : Fin 16384) (j : Fin 2048) : IsReal (rowL x1 r j) :=
  ⟨_, rfl⟩

/-- The loss of row `r`, summed over the whole row at once. -/
def lossRow (x0 : SArr.Idx → EReal) (x1 : SArr.Idx → BitVec 32) (r : Fin 16384) : EReal :=
  refRow (rowX x0 r) (rowL x1 r)

/-- The mean of the rows' losses, as a rank-0 array. -/
def mean (x0 : SArr.Idx → EReal) (x1 : SArr.Idx → BitVec 32) : (⟨0, ![]⟩ : Shape).Idx → EReal :=
  fun _ => Ideal.div (0 + ∑ r : Fin 16384, lossRow x0 x1 r) (Ideal.ofBits .f32 0x46800000#32)

end Cert.Rows

end
-- ==== Proof.KArray.lean ====
/-
  From the blocks the body stores to the kernel's result.

  The grid has 16 points; point `t` stages rows `1024 t … 1024 t + 1023` of both argument arrays,
  all 2048 columns, and writes back rows `1024 t … 1024 t + 1023` of the `16384 × 1` output. So
  what point `t` writes back is block `t` of ONE array, `perRow`: at row `r` the loss of row `r`
  of the two argument arrays, accumulated chunk by chunk. The 16 blocks tile the output, hence the
  output array after the region is `perRow`.

-/
import proofs.«156576_j13572096655779_2_alg».proof.Proof.KRow
import proofs.«156576_j13572096655779_2_alg».proof.Proof.Rows
import Idealize.ShloMosaic.Lib.Pipeline.Value
import Idealize.ShloMosaic.Lib.StableHlo.Run
import Idealize.ShloMosaic.PureOps.Ideal.Laws

noncomputable section

namespace Cert.KernelIdeal.Array

open Idealize.ShloMosaic Idealize.ShloMosaic.TcCoe Idealize.SL.Sem Idealize.ShloMosaic.ValueIdx
open Idealize.ShloMosaic.StableHlo
open Idealize.ShloMosaic.Pipeline (Dat)
open Cert.KernelIdeal Cert.KernelIdeal.Gen Cert.KernelIdeal.Body Cert.KernelIdeal.Row
open Cert.RowLaw Cert.Rows Cert.RealEntries
open scoped BigOperators

variable (m : (ℓ : Loc nD τ sig) → Buf (Elt Ideal) ℓ) (ρ : Dev nD → PrngReg)

/-- The rows' losses, accumulated chunk by chunk, as a `16384 × 1` array. -/
def perRow (a0 : S16384x2048.Idx → EReal) (a1 : S16384x2048.Idx → BitVec 32) : S16384x1.Idx → EReal :=
  fun i => kernelRow (rowX a0 ⟨(i 0).val, idx2_lt0 i⟩) (rowL a1 ⟨(i 0).val, idx2_lt0 i⟩)

/-- A block whose row `p` is row `1024 b + p` of the arrays stores, at row `p`, that row's loss. -/
theorem block_row (X0 : Vec Ideal S1024x2048 .f32) (X1 : Vec Ideal S1024x2048 .i32)
    (A0 : S16384x2048.Idx → EReal) (A1 : S16384x2048.Idx → BitVec 32) (b : ℕ)
    (h0 : ∀ (p : Fin 1024) (j : Fin 2048) (i : S16384x2048.Idx),
      (i 0).val = b * 1024 + p.val → (i 1).val = j.val → X0 (ix2 p j) = A0 i)
    (h1 : ∀ (p : Fin 1024) (j : Fin 2048) (i : S16384x2048.Idx),
      (i 0).val = b * 1024 + p.val → (i 1).val = j.val → X1 (ix2 p j) = A1 i)
    (y : S1024x1.Idx) (i : S16384x1.Idx) (hi : (i 0).val = b * 1024 + (y 0).val) :
    rowOut X0 X1 y = perRow A0 A1 i := by
  obtain ⟨p, u, rfl⟩ : ∃ (p : Fin 1024) (u : Fin 1), y = ix2 p u := ⟨y 0, y 1, eq_ix2 y⟩
  rw [rowOut_apply]
  unfold perRow
  have e0 : bX X0 p = rowX A0 ⟨(i 0).val, idx2_lt0 i⟩ := funext fun j => h0 p j _ hi rfl
  have e1 : bL X1 p = rowL A1 ⟨(i 0).val, idx2_lt0 i⟩ :=
    funext fun j => congrArg (FloatOps.sitofp (F := Ideal) .f32) (h1 p j _ hi rfl)
  rw [e0, e1]

/-- The index maps over the grid: every window's block at point `t` is block `(t, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `perRow` of the argument arrays. -/
theorem flushed_eq (c : Dev nD) (t : Fin cfg0.N) :
    (dats m 0 c).flushed 2 t
      = ((cfg0.win 2).blk t).view.read (Elt Ideal) (perRow (V m c main_arg0) (V m c main_arg1)) := by
  show (cfg0.win 2).cut (grid0.coords t) ((dats m 0 c).after 2 t) = _
  rw [after0_2]
  unfold outsAt0
  rw [out_eq (iblk m c 0 t) (iblk m c 1 t) c (grid0.coords t) (ms0_0 t) (hs0_0 t) (ms0_1 t) (hs0_1 t) (ms0_2 t) (hs0_2 t)]
  obtain ⟨e0, e1, e2, e3, e4, e5⟩ := idx_facts t
  funext j
  show rowOut (iblk m c 0 t) (iblk m c 1 t) j
    = perRow (V m c main_arg0) (V m c main_arg1) (((cfg0.win 2).blk t).view.emb j)
  refine block_row (iblk m c 0 t) (iblk m c 1 t) (V m c main_arg0) (V m c main_arg1) t.val ?_ ?_ j _ ?_
  · intro p k i hi0 hi1
    show V m c main_arg0 (((cfg0.win 0).blk t).view.emb (ix2 p k)) = V m c main_arg0 i
    refine congrArg _ (funext fun a => Fin.ext ?_)
    match a with
    | ⟨0, _⟩ => show win0_0.index t (0 : Fin 2) * 1024 + 1 * p.val = (i 0).val; rw [e0, hi0]; omega
    | ⟨1, _⟩ => show win0_0.index t (1 : Fin 2) * 2048 + 1 * k.val = (i 1).val; rw [e1, hi1]; omega
  · intro p k i hi0 hi1
    show V m c main_arg1 (((cfg0.win 1).blk t).view.emb (ix2 p k)) = V m c main_arg1 i
    refine congrArg _ (funext fun a => Fin.ext ?_)
    match a with
    | ⟨0, _⟩ => show win0_1.index t (0 : Fin 2) * 1024 + 1 * p.val = (i 0).val; rw [e2, hi0]; omega
    | ⟨1, _⟩ => show win0_1.index t (1 : Fin 2) * 2048 + 1 * k.val = (i 1).val; rw [e3, hi1]; omega
  · show win0_2.index t (0 : Fin 2) * 1024 + 1 * (j 0).val = t.val * 1024 + (j 0).val
    rw [e4]; omega

/-- An index of the output is in point `t`'s block iff each coordinate is in the block's range. -/
theorem mem_blk (t : Fin cfg0.N) (i : S16384x1.Idx) :
    i ∈ ((cfg0.win 2).blk t).view.set ↔ ∀ a : Fin 2, win0_2.index t a * S1024x1.size a ≤ (i a).val
      ∧ (i a).val < win0_2.index t a * S1024x1.size a + S1024x1.size a := by
  show i ∈ ((View.whole main_v0).slice (win0_2.rect t)).set ↔ _
  rw [View.set_slice_whole, Rect.mem_set_unit]
  exact Iff.rfl

/-- Row `r` of the output lies in the block of point `r / 1024`: the 16 blocks tile the output. -/
theorem cover (i : S16384x1.Idx) :
    ∃ t : Fin cfg0.N, (cfg0.win 2).flush t = true ∧ i ∈ ((cfg0.win 2).blk t).view.set := by
  have hN : grid0.N = 16 := N_0
  have hi0 : (i 0).val < 16384 := idx2_lt0 i
  have hi1 : (i 1).val < 1 := idx2_lt1 i
  let t : Fin cfg0.N := ⟨(i 0).val / 1024, by show (i 0).val / 1024 < grid0.N; rw [hN]; omega⟩
  obtain ⟨-, -, -, -, e4, e5⟩ := idx_facts t
  refine ⟨t, flush0_2 t, ?_⟩
  rw [mem_blk]
  intro a
  have ht : t.val = (i 0).val / 1024 := rfl
  match a with
  | ⟨0, _⟩ =>
    show win0_2.index t (0 : Fin 2) * 1024 ≤ (i 0).val ∧ (i 0).val < win0_2.index t (0 : Fin 2) * 1024 + 1024
    rw [e4, ht]; omega
  | ⟨1, _⟩ =>
    show win0_2.index t (1 : Fin 2) * 1 ≤ (i 1).val ∧ (i 1).val < win0_2.index t (1 : Fin 2) * 1 + 1
    rw [e5]; omega

/-- The output array after the region is `perRow` of the argument arrays. -/
theorem final (c : Dev nD) :
    (dats m 0 c).arrAt 2 cfg0.N = perRow (V m c main_arg0) (V m c main_arg1) :=
  (dats m 0 c).arrAt_eq_of_cover 2 (perRow (V m c main_arg0) (V m c main_arg1))
    (fun t _ => flushed_eq m c t) (cover)

end Cert.KernelIdeal.Array

end
-- ==== Proof.KTail.lean ====
/-
  The kernel's result.

  After the region the program sums the 16384 values of the output from zero and divides by the
  number the word `0x46800000` denotes. The output is `perRow`: the rows' losses accumulated chunk
  by chunk. With every entry of the first argument a real number, the chunk-by-chunk loss of a row
  is its whole-row loss (`RowLaw.row_law`); the output has one column, so the sum over its indices
  is the sum over the rows. Hence the result is `Rows.mean` of the two arguments, and the run ends
  with the result there and the arguments unchanged.
-/
import proofs.«156576_j13572096655779_2_alg».proof.Proof.KArray

noncomputable section

namespace Cert.KernelIdeal.Tail

open Idealize.ShloMosaic Idealize.ShloMosaic.TcCoe Idealize.SL.Sem Idealize.ShloMosaic.ValueIdx
open Idealize.ShloMosaic.StableHlo
open Idealize.ShloMosaic.Pipeline (Dat)
open Cert.KernelIdeal Cert.KernelIdeal.Gen Cert.KernelIdeal.Array
open Cert.RowLaw Cert.Rows Cert.RealEntries
open scoped BigOperators

variable (m : (ℓ : Loc nD τ sig) → Buf (Elt Ideal) ℓ) (ρ : Dev nD → PrngReg)

/-- With real entries, the sum of the chunk-by-chunk losses over the output's indices is the sum of
    the whole-row losses over the rows. -/
theorem sum_perRow (A0 : S16384x2048.Idx → EReal) (A1 : S16384x2048.Idx → BitVec 32) (hfin : ∀ i, IsReal (A0 i)) :
    ∑ i : S16384x1.Idx, perRow A0 A1 i = ∑ r : Fin 16384, lossRow A0 A1 r := by
  rw [sum_idx2]
  refine Finset.sum_congr rfl fun r _ => ?_
  rw [Fin.sum_univ_one]
  show kernelRow (rowX A0 r) (rowL A1 r) = _
  exact row_law _ _ (fun j => hfin _) (isReal_rowL A1 r)

/-- The two lines after the region, on any output array: its sum from zero, divided. -/
theorem tail_apply (Y : S16384x1.Idx → EReal) (i : S_.Idx) :
    Host.divf (F := Ideal) (Host.reduceAdd (F := Ideal) Y (constant (F := Ideal) S_ .f32 0x00000000#32) reducesTo_S16384x1_S_d0_1 h_S_)
        (constant (F := Ideal) S_ .f32 0x46800000#32) i
      = Ideal.div (0 + ∑ j : S16384x1.Idx, Y j) (Ideal.ofBits .f32 0x46800000#32) := by
  show Ideal.div (Host.reduceAdd (F := Ideal) Y (constant (F := Ideal) S_ .f32 0x00000000#32) reducesTo_S16384x1_S_d0_1 h_S_ i)
      (Ideal.ofBits .f32 0x46800000#32) = _
  simp only [Host.reduceAdd, Ideal.hostReduceAdd_def]
  rw [Ideal.hostReduceAdd_total reducesTo_S16384x1_S_d0_1 (fun b => b.elim0) Y _ i]
  show Ideal.div (Ideal.ofBits .f32 0x00000000#32 + _) _ = _
  rw [Ideal.ofBits_zero_f32]

/-- The lines after the region leave the mean of the rows' losses in the result. -/
theorem tail_eq (c : Dev nD) (hfin : ∀ i, IsReal (m ((c : Thread nD τ).loc main_arg0) i)) :
    Pipeline.afterTail₀ cfgs (dats m) 0 (V0 m) [hostOps1] c main_v2
      = mean (m ((c : Thread nD τ).loc main_arg0)) (m ((c : Thread nD τ).loc main_arg1)) := by
  unfold Pipeline.afterTail₀
  show StableHlo.after hostOps1 _ (Proc.devRef .tc main_v2) = _
  after_results
  have hA : Pipeline.withArrays (cfgs 0).spec c (V0 m c) (fun w => (dats m 0 c).arrAt w (cfgs 0).N) (Proc.devRef .tc main_v0)
      = perRow (m ((c : Thread nD τ).loc main_arg0)) (m ((c : Thread nD τ).loc main_arg1)) :=
    (Pipeline.withArrays_arr spec0 launch0.win.arr_inj c (V0 m c)
      (fun w => (dats m 0 c).arrAt w cfg0.N) 2).trans (final m c)
  rw [hA]
  funext i
  refine (tail_apply _ i).trans ?_
  unfold mean
  rw [sum_perRow _ _ hfin]

/-- The run of the idealized kernel, read: the result at the mean of the rows' losses, the arguments unchanged. -/
theorem run (hfin : ∀ (c : Dev nD) i, IsReal (m ((c : Thread nD τ).loc main_arg0) i)) :
    θ_run defs (onTc (τ := τ) (main (F := Ideal))) ⟨m, fun _ => 0, ρ⟩ fun r => ∀ c : Dev nD,
      r.2.mem ((c : Thread nD τ).loc main_v2)
          = mean (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v2 (Pipeline.mem_restRefs_of main_v2 (by decide) (by decide))).trans (tail_eq m c (hfin c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Tail

end
-- ==== Proof.RefRow.lean ====
/-
  The reference computes the mean of the rows' losses.

  Its operations, read one at a time at an index: the labels as floats, `1 - label`, `exp x`, the
  product summed along each row from zero; `label / exp x` summed along each row from zero; the two
  sums multiplied; `log (1 + ·)`; the 16384 values summed from zero and divided by 16384.
  Row `r`'s value is `lossRow` of the two arrays' rows `r`, so the result is `mean`.
-/
import proofs.«156576_j13572096655779_2_alg».proof.Proof.Gen.ReferenceIdeal.Read
import proofs.«156576_j13572096655779_2_alg».proof.Proof.Rows
import proofs.«156576_j13572096655779_2_alg».proof.Proof.LibUnitAxisSums
import Idealize.ShloMosaic.Lib.ValueIdx
import Idealize.ShloMosaic.PureOps.Ideal.Laws

noncomputable section

namespace Cert.ReferenceIdeal.RefRow

open Cert.ReferenceIdeal Cert.ReferenceIdeal.Gen Cert.ReferenceIdeal.Read
open Idealize.ShloMosaic Idealize.ShloMosaic.ValueIdx Cert.RowLaw Cert.Rows
open scoped BigOperators

/-- The word `0x3F800000` denotes one. -/
theorem one_f32 : Ideal.ofBits .f32 0x3F800000#32 = 1 := IdealRules.sign_bit.ideal_onePat .f32

variable (x0 : (⟨S16384x2048, .f32⟩ : BufTy).Contents (Elt Ideal)) (x1 : (⟨S16384x2048, .i32⟩ : BufTy).Contents (Elt Ideal))

/-- The column `k` of the row of a rank-1 index. -/
theorem idx5_eq (r : Fin 16384) (k : Fin 2048) : idx_main_v5 (ix1 r) k = ix2 r k :=
  funext fun a => Fin.ext (by match a with | ⟨0, _⟩ => rfl | ⟨1, _⟩ => rfl)
theorem idx7_eq (r : Fin 16384) (k : Fin 2048) : idx_main_v7 (ix1 r) k = ix2 r k :=
  funext fun a => Fin.ext (by match a with | ⟨0, _⟩ => rfl | ⟨1, _⟩ => rfl)

/-- The value before the last sum, at row `r`: the loss of the row. -/
theorem row_eq (r : Fin 16384) : val_main_v9 (F := Ideal) x0 x1 (ix1 r) = lossRow x0 x1 r := by
  rw [val_main_v9_apply, val_main_v8_apply, val_main_v5_apply, val_main_v7_apply]
  simp only [idx5_eq, idx7_eq, val_main_v4_apply, val_main_v2_apply, val_main_v1_apply, val_main_cst_apply, val_main_v0_apply,
    val_main_v3_apply, val_main_v6_apply, val_main_cst_0_apply, val_main_cst_1_apply, Ideal.hostUnary_log1p_def,
    Ideal.mulf_def, Ideal.subf_def, Ideal.hostUnary_exp_def, Ideal.hostDivf_def, Ideal.ofBits_def, Ideal.ofBits_zero_f32,
    one_f32]
  rfl

/-- The reference's result is the mean of the rows' losses. -/
theorem result_eq : val_main_v11 (F := Ideal) x0 x1 = mean x0 x1 := by
  funext i
  rw [val_main_v11_apply, val_main_v10_apply, val_main_cst_3_apply, val_main_cst_2_apply]
  simp only [Ideal.hostDivf_def, Ideal.ofBits_def, Ideal.ofBits_zero_f32]
  unfold mean
  rw [sum_idx1]
  exact congrArg (fun s => Ideal.div (0 + s) (Ideal.ofBits .f32 0x46800000#32))
    (Finset.sum_congr rfl fun r _ => row_eq x0 x1 r)

end Cert.ReferenceIdeal.RefRow

end
-- ==== Proof.Finite.lean ====
/-
  The precondition: every entry of the first argument is a real number.

  The precondition compares `|x|` with the number the word `0x7F800000` denotes, which is `+∞`,
  at every entry, and takes the conjunction of all the comparisons. If that conjunction holds then
  at every entry `max x (-x) < ⊤`; an extended real with that property is neither `⊤` nor `⊥`, so
  it is a real number.
-/
import proofs.«156576_j13572096655779_2_alg».proof.Pre_finite_inputs
import proofs.«156576_j13572096655779_2_alg».proof.Proof.LibRealEntries
import Idealize.ShloMosaic.Lib.ReduceAll
import Idealize.ShloMosaic.Lib.ValueIdx
import Idealize.ShloMosaic.Lib.Pipeline.Value
import Idealize.ShloMosaic.PureOps.Ideal.Laws

noncomputable section

namespace Cert.Finite

open Idealize.ShloMosaic Idealize.ShloMosaic.ValueIdx Cert.RealEntries Cert.Pre_finite_inputs

/-- The word `0x7F800000` denotes `+∞`. -/
theorem ofBits_inf : Ideal.ofBits .f32 0x7F800000#32 = ⊤ := by simp [Ideal.ofBits, Ideal.ieee]

/-- An extended real whose absolute value is below `+∞` is a real number. -/
theorem isReal_of_abs_lt_top (x : EReal) (h : Ideal.cmp .olt (max x (-x)) ⊤ = 1#1) : IsReal x := by
  induction x using EReal.rec with
  | bot => exfalso; simp [Ideal.cmp] at h
  | top => exfalso; simp [Ideal.cmp] at h
  | coe r => exact ⟨r, rfl⟩

instance : Subsingleton S_.Idx := ⟨fun a b => funext fun d => d.elim0⟩

variable [Cert.Pre_finite_inputs.Facts]

/-- Under the precondition every entry of the first argument is a real number. -/
theorem real_of_pre (x0 : FVec Ideal S16384x2048 .f32) (x1 : IVec S16384x2048 32)
    (h : Cert.Pre_finite_inputs.fn (F := Ideal) x0 x1 = fun _ => 1#1) (i : S16384x2048.Idx) : IsReal (x0 i) := by
  have h0 := congrFun h ix0
  dsimp only [Cert.Pre_finite_inputs.fn] at h0
  have h1 := Host.reduce_andi_all _ _ _ _ _ h0 i
  have e : (broadcastInDim S16384x2048 ![] Facts.bcast_S_S16384x2048 (constant (F := Ideal) S_ .f32 0x7F800000#32)) i
      = Ideal.ofBits .f32 0x7F800000#32 :=
    broadcastInDim_apply _ Facts.bcast_S_S16384x2048 _ i (fun a => a.elim0) (fun a => a.elim0)
  refine isReal_of_abs_lt_top (x0 i) ?_
  rw [← ofBits_inf, ← e]
  exact h1

end Cert.Finite

end
-- ==== Proof.lean ====
/-
  A per-sample pairwise loss, chunked on the chip against one pass in jnp.

  For predictions `x` and integer labels `ℓ`, both `16384 × 2048`, each row's loss is
  `log (1 + N · P)` with `N = ∑ (1 - ℓ) · exp x` and `P = ∑ ℓ / exp x` over the row, and the result is
  the mean of the 16384 losses. The reference computes exactly this. The kernel handles 1024 rows
  per grid point and walks each row in 16 chunks of 128 columns, keeping `N` as a running value that
  gains `∑ exp x` and loses `∑ ℓ · exp x` per chunk and `P` as one that gains `∑ ℓ · exp (0 - x)`; the
  mean is taken after the kernel, as a sum from zero divided by 16384.

  On the extended reals the two are equal when every prediction is a real number, which is what
  the precondition says: then `exp (0 - x) = 1 / exp x`, `(1 - ℓ) · e = e - ℓ · e`, and a row's sum is the
  sum over its chunks (`RowLaw.row_law`); the labels are integers, hence real. With an infinite
  prediction `e - ℓ · e` is no longer `(1 - ℓ) · e`, so the precondition is used.

  The three frames are the generated ones (the reference's is its run with the result dropped);
  the ideal pass rewrote nothing, so `preserves` is `True`; `algebraic` puts the kernel's run, read
  as `Rows.mean` of the arguments (`Tail.run`), beside the reference's run, whose result term is the
  same `Rows.mean` (`RefRow.result_eq`), at arguments that agree.
-/
import proofs.«156576_j13572096655779_2_alg».proof.Defs
import proofs.«156576_j13572096655779_2_alg».proof.Proof.Gen.Kernel
import proofs.«156576_j13572096655779_2_alg».proof.Proof.Gen.Kernel.Skeleton
import proofs.«156576_j13572096655779_2_alg».proof.Proof.Gen.Kernel.Launch
import proofs.«156576_j13572096655779_2_alg».proof.Proof.Gen.Kernel.Points
import proofs.«156576_j13572096655779_2_alg».proof.Proof.Gen.Kernel.Frame
import proofs.«156576_j13572096655779_2_alg».proof.Proof.Gen.KernelIdeal
import proofs.«156576_j13572096655779_2_alg».proof.Proof.Gen.KernelIdeal.Skeleton
import proofs.«156576_j13572096655779_2_alg».proof.Proof.Gen.KernelIdeal.Launch
import proofs.«156576_j13572096655779_2_alg».proof.Proof.Gen.KernelIdeal.Points
import proofs.«156576_j13572096655779_2_alg».proof.Proof.Gen.KernelIdeal.Frame
import proofs.«156576_j13572096655779_2_alg».proof.Proof.Gen.ReferenceIdeal
import proofs.«156576_j13572096655779_2_alg».proof.Proof.Gen.ReferenceIdeal.Run
import proofs.«156576_j13572096655779_2_alg».proof.Proof.Gen.ReferenceIdeal.Read
import proofs.«156576_j13572096655779_2_alg».proof.Proof.Gen.Pre_finite_inputs
import proofs.«156576_j13572096655779_2_alg».proof.Proof.KTail
import proofs.«156576_j13572096655779_2_alg».proof.Proof.RefRow
import proofs.«156576_j13572096655779_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the mean of the rows' losses of arguments that agree. -/
theorem algebraic : Cert.algebraic_KernelIdeal_ReferenceIdeal := by
  intro m ρ m' ρ' hpre hagree
  have hfin : ∀ (c : Dev Cert.KernelIdeal.nD) i,
      Cert.RealEntries.IsReal (m ((c : Thread Cert.KernelIdeal.nD Cert.KernelIdeal.τ).loc Cert.KernelIdeal.main_arg0) i) :=
    fun c i => Cert.Finite.real_of_pre _ _ (hpre c) i
  refine ⟨fun c => Cert.Rows.mean
      (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Tail.run m ρ hfin, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v11_eq (F := Ideal) _ _).trans ?_
  rw [Cert.ReferenceIdeal.RefRow.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
